-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4x72x72x72 : Shape := ⟨5, ![1, 4, 72, 72, 72]⟩
abbrev S1x4x4608x4608 : Shape := ⟨4, ![1, 4, 4608, 4608]⟩
abbrev S_ : Shape := ⟨0, ![]⟩

class Facts : Prop where
  bcast_S_S1x4x72x72x72 : S_.BroadcastsInDim S1x4x72x72x72 (![] : Fin 0 → Fin S1x4x72x72x72.rank)
  reducesTo_S1x4x72x72x72_S_d0_1_2_3_4 : S1x4x72x72x72.ReducesTo [0, 1, 2, 3, 4] S_
  h_S_ : 0 < S_.numel
  bcast_S_S1x4x4608x4608 : S_.BroadcastsInDim S1x4x4608x4608 (![] : Fin 0 → Fin S1x4x4608x4608.rank)
  reducesTo_S1x4x4608x4608_S_d0_1_2_3 : S1x4x4608x4608.ReducesTo [0, 1, 2, 3] S_

variable [Facts]

def fn {F : FTy → Type} [FloatOps F] (main_arg0 : FVec F S1x4x72x72x72 .f32) (main_arg1 : FVec F S1x4x4608x4608 .f32) : IVec S_ 1 :=
  let main_v0 : FVec F S1x4x72x72x72 .f32 := Host.absf main_arg0
  let main_cst : FVec F S_ .f32 := constant S_ .f32 0x7F800000#32
  let main_v1 : FVec F S1x4x72x72x72 .f32 := broadcastInDim S1x4x72x72x72 ![] bcast_S_S1x4x72x72x72 main_cst
  let main_v2 : IVec S1x4x72x72x72 1 := cmpf .olt main_v0 main_v1
  let main_c : IVec S_ 1 := constantI S_ 1 1#1
  let main_v3 : IVec S_ 1 := (fun x v => Host.reduce IntOp.andi x v reducesTo_S1x4x72x72x72_S_d0_1_2_3_4 h_S_) main_v2 main_c
  let main_v4 : FVec F S1x4x4608x4608 .f32 := Host.absf main_arg1
  let main_cst_0 : FVec F S_ .f32 := constant S_ .f32 0x7F800000#32
  let main_v5 : FVec F S1x4x4608x4608 .f32 := broadcastInDim S1x4x4608x4608 ![] bcast_S_S1x4x4608x4608 main_cst_0
  let main_v6 : IVec S1x4x4608x4608 1 := cmpf .olt main_v4 main_v5
  let main_c_1 : IVec S_ 1 := constantI S_ 1 1#1
  let main_v7 : IVec S_ 1 := (fun x v => Host.reduce IntOp.andi x v reducesTo_S1x4x4608x4608_S_d0_1_2_3 h_S_) main_v6 main_c_1
  let main_v8 : IVec S_ 1 := andi main_v3 main_v7
  main_v8
-- ==== Kernel.lean ====
abbrev S1x4x72x72x72 : Shape := ⟨5, ![1, 4, 72, 72, 72]⟩
abbrev S1x4x4608x4608 : Shape := ⟨4, ![1, 4, 4608, 4608]⟩
abbrev S1x4x72x5184 : Shape := ⟨4, ![1, 4, 72, 5184]⟩
abbrev S4x72x5184 : Shape := ⟨3, ![4, 72, 5184]⟩
abbrev S4x8x9x576x9 : Shape := ⟨5, ![4, 8, 9, 576, 9]⟩
abbrev S4x9x9x8x576 : Shape := ⟨5, ![4, 9, 9, 8, 576]⟩
abbrev S4x81x4608 : Shape := ⟨3, ![4, 81, 4608]⟩
abbrev S4x4608x4608 : Shape := ⟨3, ![4, 4608, 4608]⟩
abbrev S4x4608x81 : Shape := ⟨3, ![4, 4608, 81]⟩
abbrev S1x512x4608 : Shape := ⟨3, ![1, 512, 4608]⟩
abbrev S1x81x4608 : Shape := ⟨3, ![1, 81, 4608]⟩
abbrev S1x512x81 : Shape := ⟨3, ![1, 512, 81]⟩
abbrev S512x4608 : Shape := ⟨2, ![512, 4608]⟩
abbrev S81x4608 : Shape := ⟨2, ![81, 4608]⟩
abbrev S512x81 : Shape := ⟨2, ![512, 81]⟩
abbrev S512 : Shape := ⟨1, ![512]⟩
abbrev S512x1 : Shape := ⟨2, ![512, 1]⟩
abbrev S_ : Shape := ⟨0, ![]⟩

abbrev nBuf : Space → Nat
  | .hbm => 24
  | .vmem => 6
  | .smem => 0
  | _ => 0

abbrev bufTy : (tb : Table) → Fin (tcTables nBuf tb) → BufTy
  | .hbm, ⟨0, _⟩ => ⟨S1x4x72x72x72, .f32⟩
  | .hbm, ⟨1, _⟩ => ⟨S1x4x4608x4608, .f32⟩
  | .hbm, ⟨2, _⟩ => ⟨S1x4x72x5184, .f32⟩
  | .hbm, ⟨3, _⟩ => ⟨S4x72x5184, .f32⟩
  | .hbm, ⟨4, _⟩ => ⟨S4x8x9x576x9, .f32⟩
  | .hbm, ⟨5, _⟩ => ⟨S4x9x9x8x576, .f32⟩
  | .hbm, ⟨6, _⟩ => ⟨S4x81x4608, .f32⟩
  | .hbm, ⟨7, _⟩ => ⟨S4x4608x4608, .f32⟩
  | .hbm, ⟨8, _⟩ => ⟨S4x4608x81, .f32⟩
  | .hbm, ⟨9, _⟩ => ⟨S4x81x4608, .f32⟩
  | .hbm, ⟨10, _⟩ => ⟨S4x9x9x8x576, .f32⟩
  | .hbm, ⟨11, _⟩ => ⟨S4x8x9x576x9, .f32⟩
  | .hbm, ⟨12, _⟩ => ⟨S4x72x5184, .f32⟩
  | .hbm, ⟨13, _⟩ => ⟨S1x4x72x5184, .f32⟩
  | .hbm, ⟨14, _⟩ => ⟨S1x4x72x5184, .f32⟩
  | .hbm, ⟨15, _⟩ => ⟨S1x4x72x5184, .f32⟩
  | .hbm, ⟨16, _⟩ => ⟨S_, .f32⟩
  | .hbm, ⟨17, _⟩ => ⟨S_, .f32⟩
  | .hbm, ⟨18, _⟩ => ⟨S1x4x72x5184, .f32⟩
  | .hbm, ⟨19, _⟩ => ⟨S1x4x72x5184, .i1⟩
  | .hbm, ⟨20, _⟩ => ⟨S_, .f32⟩
  | .hbm, ⟨21, _⟩ => ⟨S1x4x72x5184, .f32⟩
  | .hbm, ⟨22, _⟩ => ⟨S1x4x72x5184, .f32⟩
  | .hbm, ⟨23, _⟩ => ⟨S1x4x72x5184, .f32⟩
  | .local _ .vmem, ⟨0, _⟩ => ⟨S1x512x4608, .f32⟩
  | .local _ .vmem, ⟨1, _⟩ => ⟨S1x512x4608, .f32⟩
  | .local _ .vmem, ⟨2, _⟩ => ⟨S1x81x4608, .f32⟩
  | .local _ .vmem, ⟨3, _⟩ => ⟨S1x81x4608, .f32⟩
  | .local _ .vmem, ⟨4, _⟩ => ⟨S1x512x81, .f32⟩
  | .local _ .vmem, ⟨5, _⟩ => ⟨S1x512x81, .f32⟩
  | _, _ => ⟨S1x4x72x72x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x81x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x81 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x4x72x72x72_S1x4x72x5184 : S1x4x72x72x72.ShapeCasts S1x4x72x5184
  shapeCasts_S1x4x72x5184_S4x72x5184 : S1x4x72x5184.ShapeCasts S4x72x5184
  shapeCasts_S4x72x5184_S4x8x9x576x9 : S4x72x5184.ShapeCasts S4x8x9x576x9
  transposes_S4x8x9x576x9_S4x9x9x8x576_0_2_4_1_3 : S4x8x9x576x9.Transposes [0, 2, 4, 1, 3] S4x9x9x8x576
  shapeCasts_S4x9x9x8x576_S4x81x4608 : S4x9x9x8x576.ShapeCasts S4x81x4608
  shapeCasts_S1x4x4608x4608_S4x4608x4608 : S1x4x4608x4608.ShapeCasts S4x4608x4608
  inb_S1x512x4608_S1x512x4608_0_0_0 : ∀ a, (![0, 0, 0] : Fin 3 → Nat) a + S1x512x4608.size a ≤ S1x512x4608.size a
  h_S1x512x4608 : 0 < S1x512x4608.numel
  shapeCasts_S1x512x4608_S512x4608 : S1x512x4608.ShapeCasts S512x4608
  inb_S1x81x4608_S1x81x4608_0_0_0 : ∀ a, (![0, 0, 0] : Fin 3 → Nat) a + S1x81x4608.size a ≤ S1x81x4608.size a
  h_S1x81x4608 : 0 < S1x81x4608.numel
  shapeCasts_S1x81x4608_S81x4608 : S1x81x4608.ShapeCasts S81x4608
  bitsLt_bf16_f32 : FTy.bits .bf16 < FTy.bits .f32
  natLt_1_32 : 1 < 32
  reduces_S512x4608_S512 : S512x4608.Reduces [1] S512
  shapeCasts_S512_S512x1 : S512.ShapeCasts S512x1
  broadcasts_S512x1_S512x81 : S512x1.Broadcasts S512x81
  inb_S1x512x81_S1x512x81_0_0_0 : ∀ a, (![0, 0, 0] : Fin 3 → Nat) a + S1x512x81.size a ≤ S1x512x81.size a
  h_S1x512x81 : 0 < S1x512x81.numel
  shapeCasts_S1x512x81_S512x81 : S1x512x81.ShapeCasts S512x81
  shapeCasts_S512x81_S1x512x81 : S512x81.ShapeCasts S1x512x81
  transposes_S4x4608x81_S4x81x4608_0_2_1 : S4x4608x81.Transposes [0, 2, 1] S4x81x4608
  shapeCasts_S4x81x4608_S4x9x9x8x576 : S4x81x4608.ShapeCasts S4x9x9x8x576
  transposes_S4x9x9x8x576_S4x8x9x576x9_0_3_1_4_2 : S4x9x9x8x576.Transposes [0, 3, 1, 4, 2] S4x8x9x576x9
  shapeCasts_S4x8x9x576x9_S4x72x5184 : S4x8x9x576x9.ShapeCasts S4x72x5184
  bcast_S4x72x5184_S1x4x72x5184_1_2_3 : S4x72x5184.BroadcastsInDim S1x4x72x5184 (![1, 2, 3] : Fin 3 → Fin S1x4x72x5184.rank)
  bcast_S_S1x4x72x5184 : S_.BroadcastsInDim S1x4x72x5184 (![] : Fin 0 → Fin S1x4x72x5184.rank)
  dot_S512x4608_S81x4608_S512x81_1_1_0_0_n_n_wf : DotDims.WF S512x4608 S81x4608 S512x81 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4608.size a ≤ S4x4608x4608.size a
  hwx0_0 : ∀ i : grid0.Coords, EltTy.bits .f32 = 32 ∨ (Rect.block (s := S4x4608x4608) S1x512x4608.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x81x4608.size a ≤ S4x81x4608.size a
  hwx0_1 : ∀ i : grid0.Coords, EltTy.bits .f32 = 32 ∨ (Rect.block (s := S4x81x4608) S1x81x4608.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x81.size a ≤ S4x4608x81.size a
  hwx0_2 : ∀ i : grid0.Coords, EltTy.bits .f32 = 32 ∨ (Rect.block (s := S4x4608x81) S1x512x81.size (cc0_transform_2 i) (hinb0_2 i)).WholeWords (EltTy.packing .f32)

variable [Facts₀]

def dot_S512x4608_S81x4608_S512x81_1_1_0_0_n_n : DotDims S512x4608 S81x4608 S512x81 where
  lhsContracting := [1]
  rhsContracting := [1]
  lhsNonContracting := [0]
  rhsNonContracting := [0]
  lhsBatch := []
  rhsBatch := []
  wf := dot_S512x4608_S81x4608_S512x81_1_1_0_0_n_n_wf

abbrev win0_0 : Pipeline.Window sig grid0 :=
  Pipeline.Window.ofSpec (Memref.whole main_v5) S1x512x4608.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x81x4608.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512x81.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x4x72x72x72 : Shape := ⟨5, ![1, 4, 72, 72, 72]⟩
abbrev S1x4x4608x4608 : Shape := ⟨4, ![1, 4, 4608, 4608]⟩
abbrev S1x4x72x5184 : Shape := ⟨4, ![1, 4, 72, 5184]⟩
abbrev S4x72x5184 : Shape := ⟨3, ![4, 72, 5184]⟩
abbrev S4x8x9x576x9 : Shape := ⟨5, ![4, 8, 9, 576, 9]⟩
abbrev S4x9x9x8x576 : Shape := ⟨5, ![4, 9, 9, 8, 576]⟩
abbrev S4x81x4608 : Shape := ⟨3, ![4, 81, 4608]⟩
abbrev S4x4608x4608 : Shape := ⟨3, ![4, 4608, 4608]⟩
abbrev S_ : Shape := ⟨0, ![]⟩
abbrev S4x4608 : Shape := ⟨2, ![4, 4608]⟩
abbrev S4x4608x1 : Shape := ⟨3, ![4, 4608, 1]⟩
abbrev S4x4608x81 : Shape := ⟨3, ![4, 4608, 81]⟩

abbrev nBuf : Space → Nat
  | .hbm => 37
  | .vmem => 0
  | .smem => 0
  | _ => 0

abbrev bufTy : (tb : Table) → Fin (tcTables nBuf tb) → BufTy
  | .hbm, ⟨0, _⟩ => ⟨S1x4x72x72x72, .f32⟩
  | .hbm, ⟨1, _⟩ => ⟨S1x4x4608x4608, .f32⟩
  | .hbm, ⟨2, _⟩ => ⟨S1x4x72x5184, .f32⟩
  | .hbm, ⟨3, _⟩ => ⟨S4x72x5184, .f32⟩
  | .hbm, ⟨4, _⟩ => ⟨S4x8x9x576x9, .f32⟩
  | .hbm, ⟨5, _⟩ => ⟨S4x9x9x8x576, .f32⟩
  | .hbm, ⟨6, _⟩ => ⟨S4x81x4608, .f32⟩
  | .hbm, ⟨7, _⟩ => ⟨S4x4608x4608, .f32⟩
  | .hbm, ⟨8, _⟩ => ⟨S_, .f32⟩
  | .hbm, ⟨9, _⟩ => ⟨S4x4608x4608, .f32⟩
  | .hbm, ⟨10, _⟩ => ⟨S4x4608x4608, .i1⟩
  | .hbm, ⟨11, _⟩ => ⟨S4x4608x4608, .i32⟩
  | .hbm, ⟨12, _⟩ => ⟨S_, .i32⟩
  | .hbm, ⟨13, _⟩ => ⟨S4x4608, .i32⟩
  | .hbm, ⟨14, _⟩ => ⟨S4x4608, .f32⟩
  | .hbm, ⟨15, _⟩ => ⟨S4x4608x1, .f32⟩
  | .hbm, ⟨16, _⟩ => ⟨S_, .f32⟩
  | .hbm, ⟨17, _⟩ => ⟨S4x4608x1, .f32⟩
  | .hbm, ⟨18, _⟩ => ⟨S4x4608x1, .f32⟩
  | .hbm, ⟨19, _⟩ => ⟨S4x4608x4608, .f32⟩
  | .hbm, ⟨20, _⟩ => ⟨S4x4608x4608, .f32⟩
  | .hbm, ⟨21, _⟩ => ⟨S4x4608x81, .f32⟩
  | .hbm, ⟨22, _⟩ => ⟨S4x81x4608, .f32⟩
  | .hbm, ⟨23, _⟩ => ⟨S4x9x9x8x576, .f32⟩
  | .hbm, ⟨24, _⟩ => ⟨S4x8x9x576x9, .f32⟩
  | .hbm, ⟨25, _⟩ => ⟨S4x72x5184, .f32⟩
  | .hbm, ⟨26, _⟩ => ⟨S1x4x72x5184, .f32⟩
  | .hbm, ⟨27, _⟩ => ⟨S1x4x72x5184, .f32⟩
  | .hbm, ⟨28, _⟩ => ⟨S1x4x72x5184, .f32⟩
  | .hbm, ⟨29, _⟩ => ⟨S_, .f32⟩
  | .hbm, ⟨30, _⟩ => ⟨S_, .f32⟩
  | .hbm, ⟨31, _⟩ => ⟨S1x4x72x5184, .f32⟩
  | .hbm, ⟨32, _⟩ => ⟨S1x4x72x5184, .i1⟩
  | .hbm, ⟨33, _⟩ => ⟨S_, .f32⟩
  | .hbm, ⟨34, _⟩ => ⟨S1x4x72x5184, .f32⟩
  | .hbm, ⟨35, _⟩ => ⟨S1x4x72x5184, .f32⟩
  | .hbm, ⟨36, _⟩ => ⟨S1x4x72x5184, .f32⟩
  | _, _ => ⟨S1x4x72x72x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  shapeCasts_S1x4x72x72x72_S1x4x72x5184 : S1x4x72x72x72.ShapeCasts S1x4x72x5184
  shapeCasts_S1x4x72x5184_S4x72x5184 : S1x4x72x5184.ShapeCasts S4x72x5184
  shapeCasts_S4x72x5184_S4x8x9x576x9 : S4x72x5184.ShapeCasts S4x8x9x576x9
  transposes_S4x8x9x576x9_S4x9x9x8x576_0_2_4_1_3 : S4x8x9x576x9.Transposes [0, 2, 4, 1, 3] S4x9x9x8x576
  shapeCasts_S4x9x9x8x576_S4x81x4608 : S4x9x9x8x576.ShapeCasts S4x81x4608
  shapeCasts_S1x4x4608x4608_S4x4608x4608 : S1x4x4608x4608.ShapeCasts S4x4608x4608
  bcast_S_S4x4608x4608 : S_.BroadcastsInDim S4x4608x4608 (![] : Fin 0 → Fin S4x4608x4608.rank)
  natLt_1_32 : 1 < 32
  reducesTo_S4x4608x4608_S4x4608_d2 : S4x4608x4608.ReducesTo [2] S4x4608
  h_S_ : 0 < S_.numel
  bcast_S4x4608_S4x4608x1_0_1 : S4x4608.BroadcastsInDim S4x4608x1 (![0, 1] : Fin 2 → Fin S4x4608x1.rank)
  bcast_S_S4x4608x1 : S_.BroadcastsInDim S4x4608x1 (![] : Fin 0 → Fin S4x4608x1.rank)
  bcast_S4x4608x1_S4x4608x4608_0_1_2 : S4x4608x1.BroadcastsInDim S4x4608x4608 (![0, 1, 2] : Fin 3 → Fin S4x4608x4608.rank)
  transposes_S4x4608x81_S4x81x4608_0_2_1 : S4x4608x81.Transposes [0, 2, 1] S4x81x4608
  shapeCasts_S4x81x4608_S4x9x9x8x576 : S4x81x4608.ShapeCasts S4x9x9x8x576
  transposes_S4x9x9x8x576_S4x8x9x576x9_0_3_1_4_2 : S4x9x9x8x576.Transposes [0, 3, 1, 4, 2] S4x8x9x576x9
  shapeCasts_S4x8x9x576x9_S4x72x5184 : S4x8x9x576x9.ShapeCasts S4x72x5184
  bcast_S4x72x5184_S1x4x72x5184_1_2_3 : S4x72x5184.BroadcastsInDim S1x4x72x5184 (![1, 2, 3] : Fin 3 → Fin S1x4x72x5184.rank)
  bcast_S_S1x4x72x5184 : S_.BroadcastsInDim S1x4x72x5184 (![] : Fin 0 → Fin S1x4x72x5184.rank)
  dot_S4x4608x4608_S4x81x4608_S4x4608x81_2_2_1_1_0_0_wf : DotDims.WF S4x4608x4608 S4x81x4608 S4x4608x81 [2] [2] [1] [1] [0] [0]

variable [Facts₀]

def dot_S4x4608x4608_S4x81x4608_S4x4608x81_2_2_1_1_0_0 : DotDims S4x4608x4608 S4x81x4608 S4x4608x81 where
  lhsContracting := [2]
  rhsContracting := [2]
  lhsNonContracting := [1]
  rhsNonContracting := [1]
  lhsBatch := [0]
  rhsBatch := [0]
  wf := dot_S4x4608x4608_S4x81x4608_S4x4608x81_2_2_1_1_0_0_wf

class Facts : Prop extends Facts₀ where

variable [Facts]
-- ==== Proof.Spec.lean ====
/-
  The mathematics both programs compute, stated once over the literal shapes.

  With x4 the input x laid out as [1, 4, 72, 5184], P = patches x4 the 9×9 patches of each of the 4 channels as an
  [4, 81, 4608] array (row k of channel c lists entry k of every one of the 4608 patches), and A the attention
  array as [4, 4608, 4608]:

    n (c, l)      = (number of m with A (c, l, m) ≠ 0) + ε          (ε the f32 nearest 1e-5, a positive real)
    att (c, l, k) = (∑ m, A (c, l, m) · P (c, k, m)) / n (c, l)

  and the result is  leaky_relu (fold att · x4 + x4)  with slope 0.2, where fold is the inverse re-layout of the
  patches.  One program divides the finished row sum by n (`attK`); the other divides every A (c, l, m) by n first
  and counts the nonzero entries in 32-bit integers (`attR`).  On finite inputs the two agree: a sum of real products
  with one common real nonzero divisor may be divided before or after summing, and a count below 2^31 does not wrap.
-/
import proofs.«166704_j65549790871667_1_alg».proof.KernelIdeal
import Idealize.ShloMosaic.PureOps.Ideal
import Idealize.ShloMosaic.Lib.ValueIdx
import Idealize.ShloMosaic.PureOps.Reduce

noncomputable section

namespace Cert.Spec

open Idealize.ShloMosaic Idealize.ShloMosaic.ValueIdx Cert.KernelIdeal

/-- The indicator of a ≠ 0 as the kernel forms it: the comparison's bit, widened to 32 bits, read signed. -/
def ind (a : EReal) : EReal := ((((Ideal.cmp .one a 0).setWidth 32).toInt : ℝ) : EReal)

/-- The regulariser the count is offset by: the f32 nearest 1e-5. -/
def eps : EReal := Ideal.ofBits .f32 0x3727C5AC#32

/-- Row l of channel c against patch-entry row k, the finished sum divided by the offset count of nonzeros. -/
def attKAt (A : FVec Ideal S4x4608x4608 .f32) (P : FVec Ideal S4x81x4608 .f32) (c : Fin 4) (l : Fin 4608) (k : Fin 81) : EReal :=
  Ideal.div (∑ m : Fin 4608, A (ix3 c l m) * P (ix3 c k m)) ((∑ m : Fin 4608, ind (A (ix3 c l m))) + eps)

def attK (A : FVec Ideal S4x4608x4608 .f32) (P : FVec Ideal S4x81x4608 .f32) : FVec Ideal S4x4608x81 .f32 :=
  fun i => attKAt A P (i 0) (i 1) (i 2)

theorem attK_apply (A : FVec Ideal S4x4608x4608 .f32) (P : FVec Ideal S4x81x4608 .f32) (c : Fin 4) (l : Fin 4608) (k : Fin 81) :
    attK A P (ix3 c l k) = attKAt A P c l k := rfl

/-- The number of nonzero entries of row l of channel c, counted in 32-bit integer arithmetic. -/
def cntI (A : FVec Ideal S4x4608x4608 .f32) (c : Fin 4) (l : Fin 4608) : BitVec 32 :=
  (Finset.univ : Finset (Fin 4608)).fold IntOp.addi 0#32 (fun m => (Ideal.cmp .une (A (ix3 c l m)) 0).setWidth 32)

/-- The same entry with every A (c, l, m) divided by the offset count before the products are summed. -/
def attRAt (A : FVec Ideal S4x4608x4608 .f32) (P : FVec Ideal S4x81x4608 .f32) (c : Fin 4) (l : Fin 4608) (k : Fin 81) : EReal :=
  ∑ m : Fin 4608, Ideal.div (A (ix3 c l m)) ((((cntI A c l).toInt : ℝ) : EReal) + eps) * P (ix3 c k m)

def attR (A : FVec Ideal S4x4608x4608 .f32) (P : FVec Ideal S4x81x4608 .f32) : FVec Ideal S4x4608x81 .f32 :=
  fun i => attRAt A P (i 0) (i 1) (i 2)

theorem attR_apply (A : FVec Ideal S4x4608x4608 .f32) (P : FVec Ideal S4x81x4608 .f32) (c : Fin 4) (l : Fin 4608) (k : Fin 81) :
    attR A P (ix3 c l k) = attRAt A P c l k := rfl

variable [Cert.KernelIdeal.Facts]
open Cert.KernelIdeal.Facts₀

/-- x laid out as [1, 4, 72, 5184]. -/
def x4 (x : FVec Ideal S1x4x72x72x72 .f32) : FVec Ideal S1x4x72x5184 .f32 :=
  shapeCast S1x4x72x5184 x shapeCasts_S1x4x72x72x72_S1x4x72x5184

/-- The patches of x4: [4, 72, 5184] split as [4, 8, 9, 576, 9], the two in-patch axes brought forward, and flattened to
    [4, 81, 4608]. -/
def patches (y : FVec Ideal S1x4x72x5184 .f32) : FVec Ideal S4x81x4608 .f32 :=
  shapeCast S4x81x4608
    (transpose S4x9x9x8x576 [0, 2, 4, 1, 3]
      (shapeCast S4x8x9x576x9 (shapeCast S4x72x5184 y shapeCasts_S1x4x72x5184_S4x72x5184) shapeCasts_S4x72x5184_S4x8x9x576x9)
      transposes_S4x8x9x576x9_S4x9x9x8x576_0_2_4_1_3)
    shapeCasts_S4x9x9x8x576_S4x81x4608

/-- The attention array as [4, 4608, 4608]. -/
def attn (a : FVec Ideal S1x4x4608x4608 .f32) : FVec Ideal S4x4608x4608 .f32 :=
  shapeCast S4x4608x4608 a shapeCasts_S1x4x4608x4608_S4x4608x4608

/-- The inverse re-layout of the patches, [4, 4608, 81] back to [1, 4, 72, 5184]. -/
def fold (att : FVec Ideal S4x4608x81 .f32) : FVec Ideal S1x4x72x5184 .f32 :=
  broadcastInDim S1x4x72x5184 ![1, 2, 3] bcast_S4x72x5184_S1x4x72x5184_1_2_3
    (shapeCast S4x72x5184
      (transpose S4x8x9x576x9 [0, 3, 1, 4, 2]
        (shapeCast S4x9x9x8x576 (transpose S4x81x4608 [0, 2, 1] att transposes_S4x4608x81_S4x81x4608_0_2_1) shapeCasts_S4x81x4608_S4x9x9x8x576)
        transposes_S4x9x9x8x576_S4x8x9x576x9_0_3_1_4_2)
      shapeCasts_S4x8x9x576x9_S4x72x5184)

/-- leaky_relu with slope 0.2 (the f32 word of 0.2): o where o ≥ 0, else 0.2 · o. -/
def leaky (o : FVec Ideal S1x4x72x5184 .f32) : FVec Ideal S1x4x72x5184 .f32 :=
  select (cmpf .oge o (broadcastInDim S1x4x72x5184 ![] bcast_S_S1x4x72x5184 (constant (F := Ideal) S_ .f32 0x00000000#32))) o
    (mulf (broadcastInDim S1x4x72x5184 ![] bcast_S_S1x4x72x5184 (id (constant (F := Ideal) S_ .f32 0x3E4CCCCD#32))) o)

/-- What both programs do with the attention-weighted patches: fold them back, multiply by x4, add x4, leaky_relu. -/
def tail (att : FVec Ideal S4x4608x81 .f32) (y : FVec Ideal S1x4x72x5184 .f32) : FVec Ideal S1x4x72x5184 .f32 :=
  leaky (addf (mulf (fold att) y) y)

/-- The whole result as a function of the two argument arrays, through the division after the row sum. -/
def result (x : FVec Ideal S1x4x72x72x72 .f32) (a : FVec Ideal S1x4x4608x4608 .f32) : FVec Ideal S1x4x72x5184 .f32 :=
  tail (attK (attn a) (patches (x4 x))) (x4 x)

end Cert.Spec

end
-- ==== Proof.Finite.lean ====
/-
  What the precondition gives: every entry of both argument arrays is a real number.

  The precondition says, of each array, that the conjunction over all its entries of |entry| < +∞ is true.  An extended
  real whose absolute value max (e, −e) is below +∞ is neither +∞ nor −∞, hence a real.  Re-laying an array (a reshape or
  a transposition only re-indexes it) keeps that property, so the attention array and the patches are real-valued too.
-/
import proofs.«166704_j65549790871667_1_alg».proof.Pre_finite_inputs
import proofs.«166704_j65549790871667_1_alg».proof.Proof.Gen.Pre_finite_inputs
import proofs.«166704_j65549790871667_1_alg».proof.Proof.Gen.KernelIdeal
import proofs.«166704_j65549790871667_1_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic

/-- An extended real that is a real number: the property the precondition gives of every entry. -/
def IsReal (e : EReal) : Prop := ∃ r : ℝ, e = (r : EReal)

theorem top_word : Ideal.ofBits .f32 0x7F800000#32 = (⊤ : EReal) := by
  simp [Ideal.ofBits, Ideal.ieee]

/-- |e| < +∞ leaves only the reals. -/
theorem isReal_of_abs_lt (e : EReal) (h : Ideal.cmp .olt (max e (-e)) (Ideal.ofBits .f32 0x7F800000#32) = 1#1) : IsReal e := by
  rw [top_word] at h
  have hlt : max e (-e) < ⊤ := by
    by_contra hn
    simp [Ideal.cmp, hn] at h
  induction e using EReal.rec with
  | bot => simp at hlt
  | top => simp at hlt
  | coe r => exact ⟨r, rfl⟩

instance : Subsingleton Cert.Pre_finite_inputs.S_.Idx := ⟨fun a b => funext fun d => d.elim0⟩

/-- The precondition, decoded: both argument arrays hold reals only. -/
theorem of_pre (x : FVec Ideal Cert.Pre_finite_inputs.S1x4x72x72x72 .f32) (a : FVec Ideal Cert.Pre_finite_inputs.S1x4x4608x4608 .f32)
    (h : Cert.Pre_finite_inputs.fn (F := Ideal) x a = fun _ => 1#1) : (∀ i, IsReal (x i)) ∧ (∀ i, IsReal (a i)) := by
  have h0 := congrFun h ValueIdx.ix0
  dsimp only [Cert.Pre_finite_inputs.fn] at h0
  obtain ⟨hx, ha⟩ := IntOp.andi_eq_one.1 h0
  refine ⟨fun i => ?_, fun i => ?_⟩
  · exact isReal_of_abs_lt (x i) (Host.reduce_andi_all _ _ _ _ _ hx i)
  · exact isReal_of_abs_lt (a i) (Host.reduce_andi_all _ _ _ _ _ ha i)

/-! Re-laying keeps the entries: each entry of the re-laid array is an entry of the original. -/

theorem x4_real {x : FVec Ideal Cert.KernelIdeal.S1x4x72x72x72 .f32} (hx : ∀ i, IsReal (x i)) : ∀ i, IsReal (Cert.Spec.x4 x i) :=
  fun _ => hx _

theorem attn_real {a : FVec Ideal Cert.KernelIdeal.S1x4x4608x4608 .f32} (ha : ∀ i, IsReal (a i)) : ∀ i, IsReal (Cert.Spec.attn a i) :=
  fun _ => ha _

theorem patches_real {y : FVec Ideal Cert.KernelIdeal.S1x4x72x5184 .f32} (hy : ∀ i, IsReal (y i)) : ∀ i, IsReal (Cert.Spec.patches y i) :=
  fun _ => hy _

end Cert.Finite

end
-- ==== Proof.LibConsts.lean ====
/- The f32 words this proof evaluates at the ideal instance: the word 0x3727C5AC (the nearest f32 to 1e-5) denotes a
   positive real.  Stated once, so that no other module unfolds the decoding of a word. -/
import Idealize.ShloMosaic.PureOps.Ideal

noncomputable section

namespace Cert.LibConsts

open Idealize.ShloMosaic

/-- The f32 word 0x3727C5AC denotes the dyadic rational 10995116 / 2^40, a positive real. -/
theorem eps_word : Ideal.ofBits .f32 0x3727C5AC#32 = (((10995116 : ℝ) / 1099511627776 : ℝ) : EReal) := by
  simp [Ideal.ofBits, Ideal.ieee, -EReal.coe_mul]; norm_num

theorem eps_pos : ∃ e : ℝ, 0 < e ∧ Ideal.ofBits .f32 0x3727C5AC#32 = (e : EReal) :=
  ⟨(10995116 : ℝ) / 1099511627776, by norm_num, eps_word⟩

end Cert.LibConsts

end
-- ==== Proof.LibBitCount.lean ====
/-
  Counting set bits in 32-bit integer arithmetic.

  A family of single bits, each widened to 32 bits and added up with the wrapping 32-bit addition, gives, read as a
  signed integer, the true number of set bits, provided the family has fewer than 2^31 members: every partial sum is
  at most the number of bits added so far, so no addition wraps and the sign bit stays clear.  Stated for a fold over
  any finite set; a widened bit read as a signed integer is 0 or 1, in particular nonnegative.
-/
import Idealize.ShloMosaic.PureOps.Reduce
import Mathlib

namespace Cert.LibBitCount

open Idealize.ShloMosaic

/-- A single bit widened to 32 bits is 0 or 1 as a natural number. -/
theorem toNat_setWidth_bit_le (b : BitVec 1) : (b.setWidth 32).toNat ≤ 1 := by
  rcases BitVec.eq_zero_or_eq_one b with h | h <;> subst h <;> decide

/-- The wrapping sum of widened bits over a set of fewer than 2^31 members is, as a natural number, the plain sum of
    the bits, and that sum is at most the size of the set. -/
theorem toNat_fold_addi_bits {ι : Type} [DecidableEq ι] (s : Finset ι) (w : ι → BitVec 1) (hs : s.card < 2 ^ 31) :
    (s.fold IntOp.addi 0#32 (fun k => (w k).setWidth 32)).toNat = ∑ k ∈ s, ((w k).setWidth 32).toNat
      ∧ ∑ k ∈ s, ((w k).setWidth 32).toNat ≤ s.card := by
  induction s using Finset.induction_on with
  | empty => simp
  | insert a s ha ih =>
    rw [Finset.card_insert_of_notMem ha] at hs
    obtain ⟨h1, h2⟩ := ih (by omega)
    have hb := toNat_setWidth_bit_le (w a)
    rw [Finset.fold_insert ha, Finset.sum_insert ha, Finset.card_insert_of_notMem ha]
    refine ⟨?_, by omega⟩
    rw [IntOp.addi, BitVec.toNat_add, h1, Nat.mod_eq_of_lt (by omega)]

/-- The wrapping 32-bit sum of fewer than 2^31 widened bits, read signed, is the real sum of the bits read signed. -/
theorem toInt_fold_addi_bits {ι : Type} [DecidableEq ι] (s : Finset ι) (w : ι → BitVec 1) (hs : s.card < 2 ^ 31) :
    (((s.fold IntOp.addi 0#32 (fun k => (w k).setWidth 32)).toInt : ℝ)) = ∑ k ∈ s, ((((w k).setWidth 32).toInt : ℝ)) := by
  obtain ⟨h1, h2⟩ := toNat_fold_addi_bits s w hs
  have hbit : ∀ k, ((w k).setWidth 32).toInt = (((w k).setWidth 32).toNat : ℤ) := fun k =>
    BitVec.toInt_eq_toNat_of_lt (by have := toNat_setWidth_bit_le (w k); omega)
  rw [BitVec.toInt_eq_toNat_of_lt (by omega), h1]
  simp only [hbit]
  push_cast
  rfl

/-- A widened bit read as a signed integer is nonnegative. -/
theorem toInt_setWidth_bit_nonneg (b : BitVec 1) : (0 : ℝ) ≤ (((b.setWidth 32).toInt : ℝ)) := by
  rw [BitVec.toInt_eq_toNat_of_lt (by have := toNat_setWidth_bit_le b; omega)]
  positivity

end Cert.LibBitCount
-- ==== Proof.LibRowScale.lean ====
/-
  Dividing a row by a common real divisor before or after a sum of products.

  Over the extended reals with the division that multiplies by the reciprocal off zero: when every a k and every p k
  is a real number and n is a nonzero real, the sum of the products (a k / n) · p k equals the sum of the products
  a k · p k divided by n.  Everything is the coercion of a real, so the identity is the real one,
  ∑ (a k · n⁻¹) · p k = (∑ a k · p k) · n⁻¹.  Also stated: the coercion of a finite real sum is the sum of the coercions.
-/
import Idealize.ShloMosaic.PureOps.Ideal
import Mathlib

namespace Cert.LibRowScale

open Idealize.ShloMosaic

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- With real entries and a nonzero real divisor, dividing every a k before the products are summed gives the same
    as dividing the finished sum. -/
theorem sum_div_mul_eq_div_sum {ι : Type} [Fintype ι] (a p : ι → EReal) (ha : ∀ k, ∃ r : ℝ, a k = (r : EReal))
    (hp : ∀ k, ∃ r : ℝ, p k = (r : EReal)) (n : ℝ) (hn : n ≠ 0) :
    ∑ k, Ideal.div (a k) (n : EReal) * p k = Ideal.div (∑ k, a k * p k) (n : EReal) := by
  choose a' ha' using ha
  choose p' hp' using hp
  have hl : ∀ k, Ideal.div (a k) (n : EReal) * p k = ((a' k * (1 / n) * p' k : ℝ) : EReal) := fun k => by
    rw [Ideal.div_coe hn, ha', hp', ← EReal.coe_mul, ← EReal.coe_mul]
  have hr : ∀ k, a k * p k = ((a' k * p' k : ℝ) : EReal) := fun k => by
    rw [ha', hp', ← EReal.coe_mul]
  rw [Ideal.div_coe hn]
  simp only [hl, hr]
  rw [← coe_sum, ← coe_sum, ← EReal.coe_mul, Finset.sum_mul]
  congr 1
  exact Finset.sum_congr rfl (fun k _ => by ring)

end Cert.LibRowScale
-- ==== Proof.Bridge.lean ====
/-
  The two forms of the attention-weighted patches agree on finite inputs.

  One form divides the finished row sum ∑ m, A (c, l, m) · P (c, k, m) by n (c, l); the other divides every
  A (c, l, m) by n (c, l) first and counts the nonzero entries in 32-bit integers.  A row has 4608 < 2^31 entries, so
  the integer count does not wrap and is the real number of nonzero entries; that number is nonnegative and ε is
  positive, so n (c, l) is a nonzero real, and a sum of real products may be divided by it before or after summing.
-/
import proofs.«166704_j65549790871667_1_alg».proof.Proof.Spec
import proofs.«166704_j65549790871667_1_alg».proof.Proof.LibConsts
import proofs.«166704_j65549790871667_1_alg».proof.Proof.LibBitCount
import proofs.«166704_j65549790871667_1_alg».proof.Proof.LibRowScale

noncomputable section

namespace Cert.Spec

open Idealize.ShloMosaic Idealize.ShloMosaic.ValueIdx Cert.KernelIdeal

/-- The 32-bit count of the nonzero entries of a row, read signed, is the real sum of the row's indicators. -/
theorem cntI_toInt (A : FVec Ideal S4x4608x4608 .f32) (c : Fin 4) (l : Fin 4608) :
    (((cntI A c l).toInt : ℝ)) = ∑ m : Fin 4608, ((((Ideal.cmp .one (A (ix3 c l m)) 0).setWidth 32).toInt : ℝ)) :=
  Cert.LibBitCount.toInt_fold_addi_bits Finset.univ (fun m : Fin 4608 => Ideal.cmp .one (A (ix3 c l m)) 0)
    (by rw [Finset.card_univ, Fintype.card_fin]; norm_num)

/-- The sum of a row's indicators is the coercion of a nonnegative real. -/
theorem sum_ind (A : FVec Ideal S4x4608x4608 .f32) (c : Fin 4) (l : Fin 4608) :
    (∑ m : Fin 4608, ind (A (ix3 c l m)))
      = ((∑ m : Fin 4608, ((((Ideal.cmp .one (A (ix3 c l m)) 0).setWidth 32).toInt : ℝ)) : ℝ) : EReal) :=
  (Cert.LibRowScale.coe_sum Finset.univ _).symm

theorem attR_eq_attK (A : FVec Ideal S4x4608x4608 .f32) (P : FVec Ideal S4x81x4608 .f32)
    (hA : ∀ i, ∃ r : ℝ, A i = (r : EReal)) (hP : ∀ i, ∃ r : ℝ, P i = (r : EReal)) : attR A P = attK A P := by
  funext i
  obtain ⟨c, l, k, rfl⟩ : ∃ c l k, i = ix3 c l k := ⟨i 0, i 1, i 2, eq_ix3 i⟩
  rw [attR_apply, attK_apply]
  obtain ⟨e, he, hee⟩ := Cert.LibConsts.eps_pos
  have hnn : (0 : ℝ) ≤ ∑ m : Fin 4608, ((((Ideal.cmp .one (A (ix3 c l m)) 0).setWidth 32).toInt : ℝ)) :=
    Finset.sum_nonneg (fun m _ => Cert.LibBitCount.toInt_setWidth_bit_nonneg _)
  unfold attRAt attKAt
  rw [cntI_toInt, sum_ind, eps, hee, ← EReal.coe_add]
  exact Cert.LibRowScale.sum_div_mul_eq_div_sum _ _ (fun m => hA _) (fun m => hP _) _ (add_pos_of_nonneg_of_pos hnn he).ne'

end Cert.Spec

end
-- ==== Proof.RefSpec.lean ====
/-
  The reference's attention-weighted patches as the reference spells them, one whole-array term: the nonzero entries of
  each row counted in 32-bit integers, the count made a float and offset by ε, every entry of A divided by its row's
  offset count, and the batched product of the scaled A with the patches over the shared last axis.
-/
import proofs.«166704_j65549790871667_1_alg».proof.ReferenceIdeal
import Idealize.ShloMosaic.PureOps.Ideal

noncomputable section

namespace Cert.RefSpec

open Idealize.ShloMosaic Cert.ReferenceIdeal

variable [Cert.ReferenceIdeal.Facts]
open Cert.ReferenceIdeal.Facts₀

/-- Each row's number of nonzero entries plus ε, as an [4, 4608, 1] column. -/
def rowNorm (A : FVec Ideal S4x4608x4608 .f32) : FVec Ideal S4x4608x1 .f32 :=
  addf
    (broadcastInDim S4x4608x1 ![0, 1] bcast_S4x4608_S4x4608x1_0_1
      (sitofp .f32
        (Host.reduce IntOp.addi
          (extui 32 (cmpf .une A (broadcastInDim S4x4608x4608 ![] bcast_S_S4x4608x4608 (constant (F := Ideal) S_ .f32 0x00000000#32))) natLt_1_32)
          (constantI S_ 32 0#32) reducesTo_S4x4608x4608_S4x4608_d2 h_S_)))
    (broadcastInDim S4x4608x1 ![] bcast_S_S4x4608x1 (constant (F := Ideal) S_ .f32 0x3727C5AC#32))

/-- The scaled A against the patches: entry (c, l, k) sums A (c, l, m) / rowNorm (c, l) times P (c, k, m) over m. -/
def refAtt (A : FVec Ideal S4x4608x4608 .f32) (P : FVec Ideal S4x81x4608 .f32) : FVec Ideal S4x4608x81 .f32 :=
  Host.dotGeneral (F := Ideal) dot_S4x4608x4608_S4x81x4608_S4x4608x81_2_2_1_1_0_0 none
    (Host.divf (F := Ideal) A (broadcastInDim S4x4608x4608 ![0, 1, 2] bcast_S4x4608x1_S4x4608x4608_0_1_2 (rowNorm A))) P

end Cert.RefSpec

end
-- ==== Proof.RefAtt.lean ====
/-
  The reference's attention term read at an index.  The batched product at (c, l, k) is the sum over m of the scaled
  A at (c, l, m) times the patches at (c, k, m); the scaled A there is A (c, l, m) divided by the row's offset count;
  the offset count at (c, l) is the 32-bit fold over m of the widened bits "A (c, l, m) ≠ 0", read signed as a real,
  plus ε.  Together these are the specification's `attR`.
-/
import proofs.«166704_j65549790871667_1_alg».proof.Proof.RefSpec
import proofs.«166704_j65549790871667_1_alg».proof.Proof.Spec
import Idealize.ShloMosaic.PureOps.Ideal.Laws
import Idealize.ShloMosaic.PureOps.Reduce
import Idealize.ShloMosaic.Lib.ValueIdx
import Idealize.ShloMosaic.Lib.Pipeline.Value
import Idealize.ShloMosaic.Lib.IdealHost

noncomputable section

namespace Cert.RefSpec

open Idealize.ShloMosaic Idealize.ShloMosaic.ValueIdx Cert.ReferenceIdeal

variable [Cert.ReferenceIdeal.Facts]
open Cert.ReferenceIdeal.Facts₀

/-- The batched product over the shared last axis, read at (c, l, k): the sum over m of the left operand at (c, l, m)
    times the right operand at (c, k, m). -/
theorem dot_apply (X : FVec Ideal S4x4608x4608 .f32) (P : FVec Ideal S4x81x4608 .f32) (c : Fin 4) (l : Fin 4608) (k : Fin 81) :
    Host.dotGeneral (F := Ideal) dot_S4x4608x4608_S4x81x4608_S4x4608x81_2_2_1_1_0_0 none X P (ix3 c l k)
      = ∑ m : Fin 4608, X (ix3 c l m) * P (ix3 c k m) := by
  show FloatOps.dotGeneral _ none _ X P (ix3 c l k) = _
  rw [Ideal.dotGeneral_apply,
    ← Equiv.sum_comp (contrEquiv1 dot_S4x4608x4608_S4x81x4608_S4x4608x81_2_2_1_1_0_0 4608 rfl rfl).symm]
  refine Finset.sum_congr rfl fun m _ => ?_
  have c3 := contrEquiv1_symm_val dot_S4x4608x4608_S4x81x4608_S4x4608x81_2_2_1_1_0_0 4608 rfl rfl m
  have l3 : dot_S4x4608x4608_S4x81x4608_S4x4608x81_2_2_1_1_0_0.lhsIdx (ix3 c l k)
      ((contrEquiv1 dot_S4x4608x4608_S4x81x4608_S4x4608x81_2_2_1_1_0_0 4608 rfl rfl).symm m) = ix3 c l m := by
    funext ax; apply Fin.ext
    match ax with
    | ⟨0, _⟩ => simp [DotDims.lhsIdx, dot_S4x4608x4608_S4x81x4608_S4x4608x81_2_2_1_1_0_0]; rfl
    | ⟨1, _⟩ => simp [DotDims.lhsIdx, dot_S4x4608x4608_S4x81x4608_S4x4608x81_2_2_1_1_0_0]; rfl
    | ⟨2, _⟩ => simp [DotDims.lhsIdx, dot_S4x4608x4608_S4x81x4608_S4x4608x81_2_2_1_1_0_0]; exact c3
  have r3 : dot_S4x4608x4608_S4x81x4608_S4x4608x81_2_2_1_1_0_0.rhsIdx (ix3 c l k)
      ((contrEquiv1 dot_S4x4608x4608_S4x81x4608_S4x4608x81_2_2_1_1_0_0 4608 rfl rfl).symm m) = ix3 c k m := by
    funext ax; apply Fin.ext
    match ax with
    | ⟨0, _⟩ => simp [DotDims.rhsIdx, dot_S4x4608x4608_S4x81x4608_S4x4608x81_2_2_1_1_0_0]; rfl
    | ⟨1, _⟩ => simp [DotDims.rhsIdx, dot_S4x4608x4608_S4x81x4608_S4x4608x81_2_2_1_1_0_0]; rfl
    | ⟨2, _⟩ => simp [DotDims.rhsIdx, dot_S4x4608x4608_S4x81x4608_S4x4608x81_2_2_1_1_0_0]; exact c3
  rw [l3, r3]

/-- The [4, 4608] array as an [4, 4608, 1] column, read at (c, l, 0). -/
theorem bcast_col_apply {α : Type} (x : S4x4608.Idx → α) (c : Fin 4) (l : Fin 4608) :
    broadcastInDim S4x4608x1 ![0, 1] bcast_S4x4608_S4x4608x1_0_1 x (ix3 c l (0 : Fin 1)) = x (ix2 c l) := by
  refine broadcastInDim_apply ![0, 1] bcast_S4x4608_S4x4608x1_0_1 x (ix3 c l (0 : Fin 1)) (ix2 c l) ?_
  intro a
  match a with
  | ⟨0, _⟩ => rfl
  | ⟨1, _⟩ => rfl

/-- The [4, 4608, 1] column along the last axis, read at (c, l, m). -/
theorem bcast_row_apply {α : Type} (x : S4x4608x1.Idx → α) (c : Fin 4) (l : Fin 4608) (m : Fin 4608) :
    broadcastInDim S4x4608x4608 ![0, 1, 2] bcast_S4x4608x1_S4x4608x4608_0_1_2 x (ix3 c l m) = x (ix3 c l (0 : Fin 1)) := by
  refine broadcastInDim_apply ![0, 1, 2] bcast_S4x4608x1_S4x4608x4608_0_1_2 x (ix3 c l m) (ix3 c l (0 : Fin 1)) ?_
  intro a
  match a with
  | ⟨0, _⟩ => rfl
  | ⟨1, _⟩ => rfl
  | ⟨2, _⟩ => rfl

/-- The [4, 4608, 4608] index over (c, l) with the coordinate m inserted on the last axis is (c, l, m). -/
theorem lift_ix2 (h : S4x4608x4608.Reduces [2] S4x4608) (c : Fin 4) (l : Fin 4608) (m : Fin 4608) :
    h.lift (ix2 c l) m = ix3 c l m := by
  funext a; apply Fin.ext
  match a with
  | ⟨0, _⟩ => rfl
  | ⟨1, _⟩ => rfl
  | ⟨2, _⟩ => rfl

/-- The integer row count the reference reduces to, read at (c, l): the 32-bit fold over m of the widened bit
    "A (c, l, m) ≠ 0". -/
theorem count_apply (A : FVec Ideal S4x4608x4608 .f32) (c : Fin 4) (l : Fin 4608) :
    Host.reduce IntOp.addi
        (extui 32 (cmpf .une A (broadcastInDim S4x4608x4608 ![] bcast_S_S4x4608x4608 (constant (F := Ideal) S_ .f32 0x00000000#32))) natLt_1_32)
        (constantI S_ 32 0#32) reducesTo_S4x4608x4608_S4x4608_d2 h_S_ (ix2 c l)
      = Cert.Spec.cntI A c l := by
  have h : S4x4608x4608.Reduces [2] S4x4608 := by decide
  rw [Host.reduce_eq_fold_single IntOp.addi _ _ reducesTo_S4x4608x4608_S4x4608_d2 h h_S_ (ix2 c l)]
  unfold Cert.Spec.cntI
  show (Finset.univ : Finset (Fin 4608)).fold IntOp.addi 0#32 _ = _
  refine Finset.fold_congr fun m _ => ?_
  show (Ideal.cmp .une (A (h.lift (ix2 c l) m))
      (broadcastInDim S4x4608x4608 ![] bcast_S_S4x4608x4608 (constant (F := Ideal) S_ .f32 0x00000000#32) (h.lift (ix2 c l) m))).setWidth 32 = _
  rw [lift_ix2 h c l m, broadcastInDim_scalar_apply, constant_apply, Ideal.ofBits_zero_f32]

/-- Each row's offset count read at (c, l, 0): the 32-bit count read signed, as a real, plus ε. -/
theorem rowNorm_apply (A : FVec Ideal S4x4608x4608 .f32) (c : Fin 4) (l : Fin 4608) :
    rowNorm A (ix3 c l (0 : Fin 1)) = (((Cert.Spec.cntI A c l).toInt : ℝ) : EReal) + Cert.Spec.eps := by
  unfold rowNorm
  rw [addf_apply, bcast_col_apply, sitofp_apply, count_apply, broadcastInDim_scalar_apply, constant_apply]
  rfl

/-- The reference's attention term is the specification's: entry (c, l, k) sums, over m, A (c, l, m) divided by row
    (c, l)'s offset integer count, times P (c, k, m). -/
theorem refAtt_eq_attR (A : FVec Ideal Cert.ReferenceIdeal.S4x4608x4608 .f32) (P : FVec Ideal Cert.ReferenceIdeal.S4x81x4608 .f32) :
    refAtt A P = Cert.Spec.attR A P := by
  funext i
  obtain ⟨c, l, k, rfl⟩ : ∃ (c : Fin 4) (l : Fin 4608) (k : Fin 81), i = ix3 c l k := ⟨i 0, i 1, i 2, eq_ix3 i⟩
  rw [Cert.Spec.attR_apply]
  unfold refAtt Cert.Spec.attRAt
  rw [dot_apply]
  refine Finset.sum_congr rfl fun m _ => ?_
  rw [hostDivf_apply, bcast_row_apply, rowNorm_apply]

end Cert.RefSpec

end
-- ==== Proof.RefRun.lean ====
/-
  The reference program's @main as the list of its thirty-five host operations (the call of leaky_relu and the
  select inside it listed in place, over the buffers the call names), and its run: every weakly fair execution
  terminates with each buffer at the operations' fold over the launch contents.
-/
import proofs.«166704_j65549790871667_1_alg».proof.ReferenceIdeal
import proofs.«166704_j65549790871667_1_alg».proof.Proof.Gen.ReferenceIdeal
import Idealize.ShloMosaic.Lib.StableHlo.Run
import Idealize.ShloMosaic.Lib.Pipeline.Regions

noncomputable section

namespace Cert.ReferenceIdeal.RefRun

open Idealize.ShloMosaic Idealize.ShloMosaic.TcCoe Idealize.SL.Sem Cert.ReferenceIdeal Idealize.ShloMosaic.StableHlo
open Cert.ReferenceIdeal.Facts₀

variable {F : FTy → Type} [FloatOps F]

/-- @main's operations in order; the last seven are leaky_relu's body at its one call (the zero, its broadcast, the
    comparison, the slope converted to its own type, its broadcast, the product, and the select of the nested call). -/
abbrev ops : List (HloOp τ sig (Elt F)) :=
  [ reshape main_arg0 main_v0 rfl shapeCasts_S1x4x72x72x72_S1x4x72x5184,
    reshape main_v0 main_v1 rfl shapeCasts_S1x4x72x5184_S4x72x5184,
    reshape main_v1 main_v2 rfl shapeCasts_S4x72x5184_S4x8x9x576x9,
    unary main_v2 main_v3 ((transpose S4x9x9x8x576 [0, 2, 4, 1, 3] · transposes_S4x8x9x576x9_S4x9x9x8x576_0_2_4_1_3) : (⟨S4x8x9x576x9, .f32⟩ : BufTy).Contents (Elt F) → (⟨S4x9x9x8x576, .f32⟩ : BufTy).Contents (Elt F)),
    reshape main_v3 main_v4 rfl shapeCasts_S4x9x9x8x576_S4x81x4608,
    reshape main_arg1 main_v5 rfl shapeCasts_S1x4x4608x4608_S4x4608x4608,
    nullary main_cst (constant S_ .f32 0x00000000#32),
    unary main_cst main_v6 (broadcastInDim S4x4608x4608 ![] bcast_S_S4x4608x4608 : (⟨S_, .f32⟩ : BufTy).Contents (Elt F) → (⟨S4x4608x4608, .f32⟩ : BufTy).Contents (Elt F)),
    binary main_v5 main_v6 main_v7 (cmpf .une : (⟨S4x4608x4608, .f32⟩ : BufTy).Contents (Elt F) → (⟨S4x4608x4608, .f32⟩ : BufTy).Contents (Elt F) → (⟨S4x4608x4608, .i1⟩ : BufTy).Contents (Elt F)),
    unary main_v7 main_v8 ((extui 32 · natLt_1_32) : (⟨S4x4608x4608, .i1⟩ : BufTy).Contents (Elt F) → (⟨S4x4608x4608, .i32⟩ : BufTy).Contents (Elt F)),
    nullary main_c (constantI S_ 32 0#32),
    binary main_v8 main_c main_v9 ((fun x v => Host.reduce IntOp.addi x v reducesTo_S4x4608x4608_S4x4608_d2 h_S_) : (⟨S4x4608x4608, .i32⟩ : BufTy).Contents (Elt F) → (⟨S_, .i32⟩ : BufTy).Contents (Elt F) → (⟨S4x4608, .i32⟩ : BufTy).Contents (Elt F)),
    unary main_v9 main_v10 (sitofp .f32 : (⟨S4x4608, .i32⟩ : BufTy).Contents (Elt F) → (⟨S4x4608, .f32⟩ : BufTy).Contents (Elt F)),
    unary main_v10 main_v11 (broadcastInDim S4x4608x1 ![0, 1] bcast_S4x4608_S4x4608x1_0_1 : (⟨S4x4608, .f32⟩ : BufTy).Contents (Elt F) → (⟨S4x4608x1, .f32⟩ : BufTy).Contents (Elt F)),
    nullary main_cst_0 (constant S_ .f32 0x3727C5AC#32),
    unary main_cst_0 main_v12 (broadcastInDim S4x4608x1 ![] bcast_S_S4x4608x1 : (⟨S_, .f32⟩ : BufTy).Contents (Elt F) → (⟨S4x4608x1, .f32⟩ : BufTy).Contents (Elt F)),
    binary main_v11 main_v12 main_v13 (addf : (⟨S4x4608x1, .f32⟩ : BufTy).Contents (Elt F) → (⟨S4x4608x1, .f32⟩ : BufTy).Contents (Elt F) → (⟨S4x4608x1, .f32⟩ : BufTy).Contents (Elt F)),
    unary main_v13 main_v14 (broadcastInDim S4x4608x4608 ![0, 1, 2] bcast_S4x4608x1_S4x4608x4608_0_1_2 : (⟨S4x4608x1, .f32⟩ : BufTy).Contents (Elt F) → (⟨S4x4608x4608, .f32⟩ : BufTy).Contents (Elt F)),
    binary main_v5 main_v14 main_v15 (Host.divf : (⟨S4x4608x4608, .f32⟩ : BufTy).Contents (Elt F) → (⟨S4x4608x4608, .f32⟩ : BufTy).Contents (Elt F) → (⟨S4x4608x4608, .f32⟩ : BufTy).Contents (Elt F)),
    binary main_v15 main_v4 main_v16 ((fun l r => Host.dotGeneral dot_S4x4608x4608_S4x81x4608_S4x4608x81_2_2_1_1_0_0 none l r) : (⟨S4x4608x4608, .f32⟩ : BufTy).Contents (Elt F) → (⟨S4x81x4608, .f32⟩ : BufTy).Contents (Elt F) → (⟨S4x4608x81, .f32⟩ : BufTy).Contents (Elt F)),
    unary main_v16 main_v17 ((transpose S4x81x4608 [0, 2, 1] · transposes_S4x4608x81_S4x81x4608_0_2_1) : (⟨S4x4608x81, .f32⟩ : BufTy).Contents (Elt F) → (⟨S4x81x4608, .f32⟩ : BufTy).Contents (Elt F)),
    reshape main_v17 main_v18 rfl shapeCasts_S4x81x4608_S4x9x9x8x576,
    unary main_v18 main_v19 ((transpose S4x8x9x576x9 [0, 3, 1, 4, 2] · transposes_S4x9x9x8x576_S4x8x9x576x9_0_3_1_4_2) : (⟨S4x9x9x8x576, .f32⟩ : BufTy).Contents (Elt F) → (⟨S4x8x9x576x9, .f32⟩ : BufTy).Contents (Elt F)),
    reshape main_v19 main_v20 rfl shapeCasts_S4x8x9x576x9_S4x72x5184,
    unary main_v20 main_v21 (broadcastInDim S1x4x72x5184 ![1, 2, 3] bcast_S4x72x5184_S1x4x72x5184_1_2_3 : (⟨S4x72x5184, .f32⟩ : BufTy).Contents (Elt F) → (⟨S1x4x72x5184, .f32⟩ : BufTy).Contents (Elt F)),
    binary main_v21 main_v0 main_v22 (mulf : (⟨S1x4x72x5184, .f32⟩ : BufTy).Contents (Elt F) → (⟨S1x4x72x5184, .f32⟩ : BufTy).Contents (Elt F) → (⟨S1x4x72x5184, .f32⟩ : BufTy).Contents (Elt F)),
    binary main_v22 main_v0 main_v23 (addf : (⟨S1x4x72x5184, .f32⟩ : BufTy).Contents (Elt F) → (⟨S1x4x72x5184, .f32⟩ : BufTy).Contents (Elt F) → (⟨S1x4x72x5184, .f32⟩ : BufTy).Contents (Elt F)),
    nullary main_cst_1 (constant S_ .f32 0x3E4CCCCD#32),
    nullary main_call0_cst (constant S_ .f32 0x00000000#32),
    unary main_call0_cst main_call0_v0 (broadcastInDim S1x4x72x5184 ![] bcast_S_S1x4x72x5184 : (⟨S_, .f32⟩ : BufTy).Contents (Elt F) → (⟨S1x4x72x5184, .f32⟩ : BufTy).Contents (Elt F)),
    binary main_v23 main_call0_v0 main_call0_v1 (cmpf .oge : (⟨S1x4x72x5184, .f32⟩ : BufTy).Contents (Elt F) → (⟨S1x4x72x5184, .f32⟩ : BufTy).Contents (Elt F) → (⟨S1x4x72x5184, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S1x4x72x5184 ![] bcast_S_S1x4x72x5184 : (⟨S_, .f32⟩ : BufTy).Contents (Elt F) → (⟨S1x4x72x5184, .f32⟩ : BufTy).Contents (Elt F)),
    binary main_call0_v3 main_v23 main_call0_v4 (mulf : (⟨S1x4x72x5184, .f32⟩ : BufTy).Contents (Elt F) → (⟨S1x4x72x5184, .f32⟩ : BufTy).Contents (Elt F) → (⟨S1x4x72x5184, .f32⟩ : BufTy).Contents (Elt F)),
    ternary main_call0_v1 main_v23 main_call0_v4 main_v24 (select : (⟨S1x4x72x5184, .i1⟩ : BufTy).Contents (Elt F) → (⟨S1x4x72x5184, .f32⟩ : BufTy).Contents (Elt F) → (⟨S1x4x72x5184, .f32⟩ : BufTy).Contents (Elt F) → (⟨S1x4x72x5184, .f32⟩ : BufTy).Contents (Elt F)) ]

/-- @main is that straight line: the called functions' bodies unfold at their calls and a typed reference's
    transport of contents along a type equation that is `rfl` is the identity. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., reshape_bufs_sub .., unary_bufs_sub .., reshape_bufs_sub .., reshape_bufs_sub ..,
    nullary_bufs_sub .., unary_bufs_sub .., binary_bufs_sub .., unary_bufs_sub .., nullary_bufs_sub .., binary_bufs_sub ..,
    unary_bufs_sub .., unary_bufs_sub .., nullary_bufs_sub .., unary_bufs_sub .., binary_bufs_sub .., unary_bufs_sub ..,
    binary_bufs_sub .., binary_bufs_sub .., unary_bufs_sub .., reshape_bufs_sub .., unary_bufs_sub .., reshape_bufs_sub ..,
    unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- On every device, for any float values, from any memory with zero counters: every weakly fair execution of @main
    terminates with each TensorCore buffer at the operations' fold over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefValue.lean ====
/-
  The reference's run read back. The fold of its operations at the result buffer is the common tail applied to the
  reference's attention-weighted patches: its re-layout lines are x4, patches, attn and fold, its counting, offset,
  division and batched product are refAtt, and its last eight lines are leaky_relu with slope 0.2. No operation
  writes an argument buffer.
-/
import proofs.«166704_j65549790871667_1_alg».proof.Proof.RefRun
import proofs.«166704_j65549790871667_1_alg».proof.Proof.Gen.KernelIdeal
import proofs.«166704_j65549790871667_1_alg».proof.Proof.Spec
import proofs.«166704_j65549790871667_1_alg».proof.Proof.RefSpec

noncomputable section

namespace Cert.ReferenceIdeal.RefRun

open Idealize.ShloMosaic Idealize.ShloMosaic.TcCoe Idealize.SL.Sem Cert.ReferenceIdeal Idealize.ShloMosaic.StableHlo

-- the count and the division stay folded: the two sides agree on them argument by argument
attribute [local irreducible] Host.reduce Host.divf in
/-- The result buffer after the operations, from any contents: the tail of the reference's attention-weighted patches. -/
theorem out_eq (V : Valuation τ sig (Elt Ideal)) :
    after (ops (F := Ideal)) V (Proc.devRef .tc main_v24)
      = Cert.Spec.tail (Cert.RefSpec.refAtt (Cert.Spec.attn (V (Proc.devRef .tc main_arg1)))
                          (Cert.Spec.patches (Cert.Spec.x4 (V (Proc.devRef .tc main_arg0)))))
          (Cert.Spec.x4 (V (Proc.devRef .tc main_arg0))) := by
  after_results_simp
  unfold Cert.Spec.tail Cert.Spec.leaky Cert.Spec.fold Cert.Spec.patches Cert.Spec.x4 Cert.Spec.attn Cert.RefSpec.refAtt Cert.RefSpec.rowNorm
  rfl

/-- No operation writes the first argument. -/
theorem arg0_eq (V : Valuation τ sig (Elt Ideal)) :
    after (ops (F := Ideal)) V (Proc.devRef .tc main_arg0) = V (Proc.devRef .tc main_arg0) := by
  after_results_simp

/-- No operation writes the second argument. -/
theorem arg1_eq (V : Valuation τ sig (Elt Ideal)) :
    after (ops (F := Ideal)) V (Proc.devRef .tc main_arg1) = V (Proc.devRef .tc main_arg1) := by
  after_results_simp

/-- On every device, from any memory with zero counters: every weakly fair execution of the reference's @main
    terminates with the result buffer at the tail of the reference's attention-weighted patches of the arguments'
    launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24)
          = Cert.Spec.tail (Cert.RefSpec.refAtt (Cert.Spec.attn (m ((c.tc : Thread nD τ).loc main_arg1)))
                              (Cert.Spec.patches (Cert.Spec.x4 (m ((c.tc : Thread nD τ).loc main_arg0)))))
              (Cert.Spec.x4 (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v24).trans (out_eq (launchContents m c)),
      (h c main_arg0).trans (arg0_eq (launchContents m c)),
      (h c main_arg1).trans (arg1_eq (launchContents m c))⟩)
    (run_after m ρ)

end Cert.ReferenceIdeal.RefRun

end
-- ==== Proof.KHost.lean ====
/-
  The host lines of the kernel's program around its region, read as whole-array functions.

  Before the region: x is re-laid as x4 = [1, 4, 72, 5184], its patches as [4, 81, 4608], and the attention array as
  [4, 4608, 4608]; these are the arrays the region's windows stage.  After the region: the array the region wrote is folded
  back, multiplied by x4, x4 is added, and leaky_relu is applied — `Cert.Spec.tail` of the region's output and x4.
-/
import proofs.«166704_j65549790871667_1_alg».proof.Proof.Gen.KernelIdeal.Frame
import proofs.«166704_j65549790871667_1_alg».proof.Proof.Spec
import Idealize.ShloMosaic.Lib.StableHlo.Run
import Idealize.ShloMosaic.PureOps.Ideal

noncomputable section

namespace Cert.KernelIdeal.KHost

open Idealize.ShloMosaic Idealize.ShloMosaic.TcCoe Idealize.SL.Sem
open Cert.KernelIdeal Cert.KernelIdeal.Gen

variable (m : (ℓ : Loc nD τ sig) → Buf (Elt Ideal) ℓ)

/-- The region finds x re-laid as [1, 4, 72, 5184] in the first host line's buffer. -/
theorem V_v0 (c : Dev nD) : V (F := Ideal) m c main_v0 = Cert.Spec.x4 (m ((c : Thread nD τ).loc main_arg0)) := by
  show StableHlo.after hostOps0 (fun b => m (c, b)) (Proc.devRef .tc main_v0) = _
  after_results
  rfl

/-- Window 1's array: the patches of x4. -/
theorem V_v4 (c : Dev nD) : V (F := Ideal) m c main_v4 = Cert.Spec.patches (Cert.Spec.x4 (m ((c : Thread nD τ).loc main_arg0))) := by
  show StableHlo.after hostOps0 (fun b => m (c, b)) (Proc.devRef .tc main_v4) = _
  after_results
  rfl

/-- Window 0's array: the attention array as [4, 4608, 4608]. -/
theorem V_v5 (c : Dev nD) : V (F := Ideal) m c main_v5 = Cert.Spec.attn (m ((c : Thread nD τ).loc main_arg1)) := by
  show StableHlo.after hostOps0 (fun b => m (c, b)) (Proc.devRef .tc main_v5) = _
  after_results
  rfl

/-- The lines after the region, from any contents: the result is the tail of the region's output array and x4. -/
theorem tail_read (W : Valuation τ sig (Elt Ideal)) :
    StableHlo.after (List.flatten [hostOps1 (F := Ideal), hostOps1_1]) W (Proc.devRef .tc main_v14)
      = Cert.Spec.tail (W (Proc.devRef .tc main_v6)) (W (Proc.devRef .tc main_v0)) := by
  simp only [hostOps1, hostOps1_1, List.flatten_cons, List.flatten_nil, List.append_nil, List.cons_append, List.nil_append]
  after_results
  unfold Cert.Spec.tail Cert.Spec.leaky Cert.Spec.fold
  rfl

/-- The program's result after the run: the tail of what the region left in its output array, and x4. -/
theorem result_eq (c : Dev nD) :
    Pipeline.afterTail₀ cfgs (dats (F := Ideal) m) 0 (V0 m) [hostOps1, hostOps1_1] c main_v14
      = Cert.Spec.tail ((dats (F := Ideal) m 0 c).arrAt 2 cfg0.N) (V m c main_v0) := by
  unfold Pipeline.afterTail₀
  rw [tail_read]
  have h6 := Pipeline.withArrays_arr (spec0) launch0.win.arr_inj c (V0 m c) (fun w => (dats (F := Ideal) m 0 c).arrAt w cfg0.N) 2
  have h0 := Pipeline.withArrays_of_ne (spec0) c (V0 m c) (fun w => (dats (F := Ideal) m 0 c).arrAt w cfg0.N) main_v0
    (by exact (by decide : ∀ w, Pipeline.arrRef spec0 w ≠ main_v0))
  rw [h0]
  exact congrArg (fun z => Cert.Spec.tail z (V0 m c (Proc.devRef .tc main_v0))) h6

end Cert.KernelIdeal.KHost

end
-- ==== Proof.KPay.lean ====
/-
  The block the kernel's body stores, read at one entry.

  From an attention block a : [512, 4608] and a patch block p : [81, 4608] the body forms the product of a with the
  transpose of p (a sum over the 4608 shared columns; rounding the operands to a narrower format is the identity on exact
  values), the count of each row's nonzero entries as a sum of zeros and ones along the columns, offset by ε, and the
  quotient of the two, the count laid along the 81 columns.  At entry (r, q) that is
  (∑ m, a (r, m) · p (q, m)) / (∑ m, [a (r, m) ≠ 0] + ε).
-/
import proofs.«166704_j65549790871667_1_alg».proof.Proof.Gen.KernelIdeal.Skeleton
import proofs.«166704_j65549790871667_1_alg».proof.Proof.Spec
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx

/-! ## Two column forms of the layout operations -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block product at an index -/

/-- The dimension numbers of the block product: rows of the first operand against rows of the second, both contracted
    along their 4608 columns. -/
abbrev DD : DotDims S512x4608 S81x4608 S512x81 := dot_S512x4608_S81x4608_S512x81_1_1_0_0_n_n

/-- The product of a `[512, 4608]` block with the transpose of an `[81, 4608]` block, into the zero splat, read at
    `(r, q)`: the sum over the 4608 columns of the products of row `r` of the first with row `q` of the second. -/
theorem rowsProduct_apply {φ₁ φ₂ : FTy} (a : FVec Ideal S512x4608 φ₁) (b : FVec Ideal S81x4608 φ₂) (r : Fin 512) (q : Fin 81) :
    matmul DD none a b (constant (F := Ideal) S512x81 .f32 0x00000000#32) (ix2 r q)
      = ∑ m : Fin 4608, a (ix2 r m) * b (ix2 q m) := by
  refine (Ideal.matmul_constant_zero_apply DD none a b (ix2 r q)).trans ?_
  refine (Equiv.sum_comp (contrEquiv1 DD 4608 rfl rfl).symm _).symm.trans ?_
  refine Finset.sum_congr rfl fun m _ => ?_
  have cm := contrEquiv1_symm_val DD 4608 rfl rfl m
  have hl : DD.lhsIdx (ix2 r q) ((contrEquiv1 DD 4608 rfl rfl).symm m) = ix2 r m := by
    funext ax; apply Fin.ext
    match ax with
    | ⟨0, _⟩ => simp [DotDims.lhsIdx, DD, dot_S512x4608_S81x4608_S512x81_1_1_0_0_n_n]; rfl
    | ⟨1, _⟩ => exact (DD.lhsIdx_val_of_single (cl := 1) rfl _ _).trans cm
  have hr : DD.rhsIdx (ix2 r q) ((contrEquiv1 DD 4608 rfl rfl).symm m) = ix2 q m := by
    funext ax; apply Fin.ext
    match ax with
    | ⟨0, _⟩ => simp [DotDims.rhsIdx, DD, dot_S512x4608_S81x4608_S512x81_1_1_0_0_n_n]; rfl
    | ⟨1, _⟩ => exact (DD.rhsIdx_val_of_single (cr := 1) rfl _ _).trans cm
  rw [hl, hr]

/-! ## The count of a row's nonzero entries -/

/-- The sum along the columns of a `[512, 4608]` block, read at row `r`. -/
theorem rowSum_apply (src : FVec Ideal S512x4608 .f32) (hφ : FKind.Formats .f32)
    (hacc : (0x00000000#32 : BitVec 32) = FKind.add.neutral .f32 hφ) (r : Fin 512) :
    multiReduction (F := Ideal) .add [1] S512 src 0x00000000#32 reduces_S512x4608_S512 hφ hacc (ix1 r)
      = ∑ m : Fin 4608, src (ix2 r m) := by
  refine (Ideal.multiReduction_add_single src 0x00000000#32 reduces_S512x4608_S512 hφ hacc (ix1 r)).trans ?_
  refine Finset.sum_congr rfl fun m _ => ?_
  refine congrArg src ?_
  funext ax; apply Fin.ext
  match ax with
  | ⟨0, _⟩ => rfl
  | ⟨1, _⟩ => rfl

/-- The kernel's 0/1 mark of a nonzero entry is the specification's indicator. -/
theorem mark_eq (a : EReal) :
    FloatOps.sitofp (F := Ideal) .f32 ((FloatOps.cmpf (F := Ideal) (φ := .f32) .one a (Scalar.ofBits .f32 0x00000000#32)).setWidth 32)
      = Cert.Spec.ind a := by
  unfold Cert.Spec.ind
  rw [← Ideal.ofBits_zero_f32]
  rfl

/-! ## The payload at an index -/

/-- Entry `(r, q)` of the block the body stores: row `r` of the attention block against row `q` of the patch block,
    summed over the 4608 columns, divided by the offset count of row `r`'s nonzero entries. -/
theorem pay_apply (x0 : Vec Ideal S1x512x4608 .f32) (x1 : Vec Ideal S1x81x4608 .f32) (r : Fin 512) (q : Fin 81) :
    k0_pay1 (F := Ideal) x0 x1 (ix3 (0 : Fin 1) r q)
      = Ideal.div (∑ m : Fin 4608, x0 (ix3 (0 : Fin 1) r m) * x1 (ix3 (0 : Fin 1) q m))
          ((∑ m : Fin 4608, Cert.Spec.ind (x0 (ix3 (0 : Fin 1) r m))) + Cert.Spec.eps) := by
  unfold k0_pay1
  refine (shapeCast_ab_1ab_apply _ _ (0 : Fin 1) r q).trans ?_
  refine (divf_apply _ _ _).trans ?_
  refine congrArg₂ Ideal.div ?_ ?_
  · refine (rowsProduct_apply _ _ r q).trans ?_
    refine Finset.sum_congr rfl fun m _ => ?_
    refine congrArg₂ (· * ·) ?_ ?_
    · exact shapeCast_1ab_ab_apply x0 _ r m
    · exact shapeCast_1ab_ab_apply x1 _ q m
  · refine (broadcastTo_a1_ab_apply _ _ r q).trans ?_
    refine (addf_apply _ _ _).trans ?_
    refine congrArg₂ (· + ·) ?_ rfl
    refine (shapeCast_a_a1_apply _ _ r (0 : Fin 1)).trans ?_
    refine (rowSum_apply _ _ _ r).trans ?_
    refine Finset.sum_congr rfl fun m _ => ?_
    refine Eq.trans ?_ (mark_eq (x0 (ix3 (0 : Fin 1) r m)))
    exact congrArg (fun a => FloatOps.sitofp (F := Ideal) .f32 ((FloatOps.cmpf (F := Ideal) (φ := .f32) .one a (Scalar.ofBits .f32 0x00000000#32)).setWidth 32))
      (shapeCast_1ab_ab_apply x0 _ r m)

end Cert.KernelIdeal.KValue

end
-- ==== Proof.KFinal.lean ====
/-
  From the region's blocks to its output array.

  The grid has 4 × 9 points; point t works on channel t / 9 and on the 512 rows of row block t % 9.  Its block of the
  output is rows 512 (t % 9) … 512 (t % 9) + 511 of channel t / 9, all 81 columns; it reads the same rows of the attention
  array, all 4608 columns, and the whole [81, 4608] patch matrix of its channel.  What a point writes back is therefore the
  corresponding block of ONE whole-array function of the two staged arrays — the finished row sums divided by the offset
  counts — and the 36 blocks cover the output array (row l of channel c lies in the block of point 9 c + l / 512).
-/
import proofs.«166704_j65549790871667_1_alg».proof.Proof.Gen.KernelIdeal.Frame
import proofs.«166704_j65549790871667_1_alg».proof.Proof.KPay
import proofs.«166704_j65549790871667_1_alg».proof.Proof.Spec
import Idealize.ShloMosaic.Lib.Pipeline.Value

set_option maxRecDepth 16384

noncomputable section

namespace Cert.KernelIdeal.KValue

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ)

/-- The zero offsets of the body's whole-block loads and store. -/
theorem zeroOffsets : (![0, 0, 0] : Fin 3 → Nat) = fun _ => 0 := funext fun a => by fin_cases a <;> rfl

/-- The printed index maps, decided over the 36 grid points: point `t` works on channel `t / 9` and row block `t % 9`;
    the attention window and the output window move together, the patch window follows the channel only. -/
theorem blockIndices : ∀ t : Fin cfg0.N,
    win0_0.index t (0 : Fin 3) = t.val / 9 ∧ win0_0.index t (1 : Fin 3) = t.val % 9 ∧ win0_0.index t (2 : Fin 3) = 0
    ∧ win0_1.index t (0 : Fin 3) = t.val / 9 ∧ win0_1.index t (1 : Fin 3) = 0 ∧ win0_1.index t (2 : Fin 3) = 0
    ∧ win0_2.index t (0 : Fin 3) = t.val / 9 ∧ win0_2.index t (1 : Fin 3) = t.val % 9 ∧ win0_2.index t (2 : Fin 3) = 0 :=
  (by decide +kernel : ∀ t : Fin grid0.N, _)

/-- An index of the output array is in point `t`'s block iff each coordinate is in the block's range on its axis. -/
theorem mem_outBlock (t : Fin cfg0.N) (i : S4x4608x81.Idx) :
    i ∈ ((cfg0.win 2).blk t).view.set ↔ ∀ a : Fin 3, win0_2.index t a * S1x512x81.size a ≤ (i a).val ∧ (i a).val < win0_2.index t a * S1x512x81.size a + S1x512x81.size a := by
  show i ∈ ((View.whole main_v6).slice (win0_2.rect t)).set ↔ _
  rw [View.set_slice_whole, Rect.mem_set_unit]
  exact Iff.rfl

/-- Row `l` of channel `c` is written by point `9 c + l / 512`: the 36 blocks cover the output array. -/
theorem outBlocks_cover (i : S4x4608x81.Idx) :
    ∃ t : Fin cfg0.N, (cfg0.win 2).flush t = true ∧ i ∈ ((cfg0.win 2).blk t).view.set := by
  have hN : cfg0.N = 36 := N_0
  have hi0 : (i 0).val < 4 := (i 0).isLt
  have hi1 : (i 1).val < 4608 := (i 1).isLt
  have hi2 : (i 2).val < 81 := (i 2).isLt
  let t : Fin cfg0.N := ⟨(i 0).val * 9 + (i 1).val / 512, by rw [hN]; omega⟩
  have ht : t.val = (i 0).val * 9 + (i 1).val / 512 := rfl
  obtain ⟨-, -, -, -, -, -, e0, e1, e2⟩ := blockIndices t
  refine ⟨t, flush0_2 t, ?_⟩
  rw [mem_outBlock]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 81 ≤ (i 2).val ∧ (i 2).val < win0_2.index t (2 : Fin 3) * 81 + 81; omega

/-- One entry of a point's block against the specification: when row `r` of the attention block is row `l` of channel `cc`
    and row `q` of the patch block is row `q` of channel `cc`, entry `(r, q)` of what the body stores is entry `(cc, l, q)`
    of the attention-weighted patches. -/
theorem entry_eq (A : FVec Ideal S4x4608x4608 .f32) (P : FVec Ideal S4x81x4608 .f32)
    (x0 : Vec Ideal S1x512x4608 .f32) (x1 : Vec Ideal S1x81x4608 .f32) (cc : Fin 4) (l : Fin 4608) (r : Fin 512) (q : Fin 81)
    (h0 : ∀ mm : Fin 4608, x0 (ix3 (0 : Fin 1) r mm) = A (ix3 cc l mm))
    (h1 : ∀ mm : Fin 4608, x1 (ix3 (0 : Fin 1) q mm) = P (ix3 cc q mm)) :
    k0_pay1 (F := Ideal) x0 x1 (ix3 (0 : Fin 1) r q) = Cert.Spec.attK A P (ix3 cc l q) := by
  rw [pay_apply, Cert.Spec.attK_apply]
  unfold Cert.Spec.attKAt
  simp only [h0, h1]

/-- The output window is never cut: what a point writes back of a block is the block. -/
theorem outCut_apply {α : Type} (t : Fin cfg0.N) (X : S1x512x81.Idx → α) (j : S1x512x81.Idx) :
    (cfg0.win 2).cut (grid0.coords t) X j = X j := rfl

/-- An array read through the output window's block at `t`, at a block index, is the array at that index's place. -/
theorem outRead_apply (t : Fin cfg0.N) (G : S4x4608x81.Idx → EReal) (j : S1x512x81.Idx) :
    ((cfg0.win 2).blk t).view.read (Elt Ideal) G j = G (((cfg0.win 2).blk t).view.emb j) := rfl

/-- The attention window's block at `t`, at a block index, is the staged array at that index's place. -/
theorem attnBlock_apply (c : Dev nD) (t : Fin cfg0.N) (y : S1x512x4608.Idx) :
    iblk (F := Ideal) m c 0 t y = V (F := Ideal) m c main_v5 (((cfg0.win 0).blk t).view.emb y) := rfl

/-- The patch window's block at `t`, at a block index, is the staged array at that index's place. -/
theorem patchBlock_apply (c : Dev nD) (t : Fin cfg0.N) (y : S1x81x4608.Idx) :
    iblk (F := Ideal) m c 1 t y = V (F := Ideal) m c main_v4 (((cfg0.win 1).blk t).view.emb y) := rfl

/-- WHAT POINT `t` WRITES BACK is block `t` of the attention-weighted patches of the two staged arrays as the region
    finds them. -/
theorem flushed_eq (c : Dev nD) (t : Fin cfg0.N) :
    (dats (F := Ideal) m 0 c).flushed 2 t
      = ((cfg0.win 2).blk t).view.read (Elt Ideal) (Cert.Spec.attK (V (F := Ideal) m c main_v5) (V (F := Ideal) m c main_v4)) := by
  show (cfg0.win 2).cut (grid0.coords t) ((dats m 0 c).after 2 t) = _
  rw [after0_2]
  unfold out0_2
  rw [View.canon_unit_zero zeroOffsets]
  simp only [View.ld_unit_zero (S := S1x512x4608) zeroOffsets, View.ld_unit_zero (S := S1x81x4608) zeroOffsets]
  obtain ⟨e00, e01, e02, e10, e11, e12, e20, e21, e22⟩ := blockIndices t
  have hN : cfg0.N = 36 := N_0
  have ht : t.val < 36 := by have := t.isLt; omega
  refine funext fun (j : S1x512x81.Idx) => ?_
  obtain ⟨u, r, q, rfl⟩ : ∃ (u : Fin 1) (r : Fin 512) (q : Fin 81), j = ix3 u r q := ⟨j 0, j 1, j 2, eq_ix3 j⟩
  obtain rfl : u = 0 := Subsingleton.elim _ _
  have hr : r.val < 512 := r.isLt
  have hi : ((cfg0.win 2).blk t).view.emb (ix3 (0 : Fin 1) r q)
      = (ix3 (⟨t.val / 9, by omega⟩ : Fin 4) (⟨t.val % 9 * 512 + r.val, by omega⟩ : Fin 4608) q : S4x4608x81.Idx) := by
    funext a; apply Fin.ext
    match a with
    | ⟨0, _⟩ => show win0_2.index t (0 : Fin 3) * 1 + 1 * 0 = t.val / 9; omega
    | ⟨1, _⟩ => show win0_2.index t (1 : Fin 3) * 512 + 1 * r.val = t.val % 9 * 512 + r.val; omega
    | ⟨2, _⟩ => show win0_2.index t (2 : Fin 3) * 81 + 1 * q.val = q.val; omega
  refine (outCut_apply t _ _).trans (Eq.trans ?_ (outRead_apply t _ _).symm)
  refine Eq.trans ?_ (congrArg (Cert.Spec.attK (V (F := Ideal) m c main_v5) (V (F := Ideal) m c main_v4)) hi).symm
  refine entry_eq _ _ _ _ _ _ r q (fun mm => ?_) (fun mm => ?_)
  · refine (attnBlock_apply m c t _).trans (congrArg (V (F := Ideal) m c main_v5) ?_)
    funext a; apply Fin.ext
    match a with
    | ⟨0, _⟩ => show win0_0.index t (0 : Fin 3) * 1 + 1 * 0 = t.val / 9; omega
    | ⟨1, _⟩ => show win0_0.index t (1 : Fin 3) * 512 + 1 * r.val = t.val % 9 * 512 + r.val; omega
    | ⟨2, _⟩ => show win0_0.index t (2 : Fin 3) * 4608 + 1 * mm.val = mm.val; omega
  · refine (patchBlock_apply m c t _).trans (congrArg (V (F := Ideal) m c main_v4) ?_)
    funext a; apply Fin.ext
    match a with
    | ⟨0, _⟩ => show win0_1.index t (0 : Fin 3) * 1 + 1 * 0 = t.val / 9; omega
    | ⟨1, _⟩ => show win0_1.index t (1 : Fin 3) * 81 + 1 * q.val = q.val; omega
    | ⟨2, _⟩ => show win0_1.index t (2 : Fin 3) * 4608 + 1 * mm.val = mm.val; omega

/-- THE OUTPUT ARRAY after the region: the attention-weighted patches of the two staged arrays, the finished row sums
    divided by the offset counts. -/
theorem final (c : Dev nD) :
    (dats (F := Ideal) m 0 c).arrAt 2 cfg0.N = Cert.Spec.attK (V (F := Ideal) m c main_v5) (V (F := Ideal) m c main_v4) :=
  (dats (F := Ideal) m 0 c).arrAt_eq_of_cover 2 (Cert.Spec.attK (V (F := Ideal) m c main_v5) (V (F := Ideal) m c main_v4))
    (fun t _ => flushed_eq m c t) outBlocks_cover

end Cert.KernelIdeal.KValue

end
-- ==== Proof.KRun.lean ====
/-
  The kernel's program, run: its result array ends at `Cert.Spec.result` of the two argument arrays, which end unchanged.

  The run around the region leaves, in the result buffer, the tail of what the region wrote and x4; the region wrote, block
  by block, the row sums of A against the patches divided by each row's offset count of nonzeros; and the arrays the region
  staged are the host's re-layouts of the arguments.
-/
import proofs.«166704_j65549790871667_1_alg».proof.Proof.Gen.KernelIdeal.Frame
import proofs.«166704_j65549790871667_1_alg».proof.Proof.Spec
import proofs.«166704_j65549790871667_1_alg».proof.Proof.KHost
import proofs.«166704_j65549790871667_1_alg».proof.Proof.KFinal

noncomputable section

namespace Cert.KernelIdeal.KRun

open Idealize.ShloMosaic Idealize.ShloMosaic.TcCoe Idealize.SL.Sem
open Cert.KernelIdeal Cert.KernelIdeal.Gen

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14)
          = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_, ?_⟩) (run_main (F := Ideal) m ρ)
  · refine ((h c).2 main_v14 (Pipeline.mem_restRefs_of main_v14 (by decide) (by decide))).trans ?_
    rw [Cert.KernelIdeal.KHost.result_eq m c, Cert.KernelIdeal.KValue.final m c, Cert.KernelIdeal.KHost.V_v0 m c,
      Cert.KernelIdeal.KHost.V_v4 m c, Cert.KernelIdeal.KHost.V_v5 m c]
    rfl
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.KRun

end
-- ==== Proof.lean ====
/-
  The certificate's claim, assembled.

  Both programs compute, from x : [1, 4, 72, 72, 72] and the attention array : [1, 4, 4608, 4608],

      leaky_relu (fold att · x4 + x4),   att (c, l, k) = ∑ m, A (c, l, m) · P (c, k, m) / n (c, l),

  with P the 9×9 patches of x4, A the attention array per channel, and n (c, l) the number of nonzero entries of row l
  plus ε.  The kernel divides the finished row sum by n, counting nonzeros as a float sum of zeros and ones; the reference
  divides every entry of A by n first, counting in 32-bit integers.  The inputs being finite, every A (c, l, m) and
  P (c, k, m) is a real, n is a positive real, the integer count of at most 4608 ones does not wrap, and a common real
  nonzero divisor passes through a finite sum of real products: the two results are one array.

  The frames of the two kernel programs are the generated frame runs; the reference's is its run with the result dropped;
  the ideal pass rewrote nothing, so there is nothing to preserve.
-/
import proofs.«166704_j65549790871667_1_alg».proof.Defs
import proofs.«166704_j65549790871667_1_alg».proof.Proof.Gen.Kernel
import proofs.«166704_j65549790871667_1_alg».proof.Proof.Gen.Kernel.Frame
import proofs.«166704_j65549790871667_1_alg».proof.Proof.Gen.KernelIdeal
import proofs.«166704_j65549790871667_1_alg».proof.Proof.Gen.KernelIdeal.Frame
import proofs.«166704_j65549790871667_1_alg».proof.Proof.Gen.ReferenceIdeal
import proofs.«166704_j65549790871667_1_alg».proof.Proof.Gen.Pre_finite_inputs
import proofs.«166704_j65549790871667_1_alg».proof.Proof.Spec
import proofs.«166704_j65549790871667_1_alg».proof.Proof.Finite
import proofs.«166704_j65549790871667_1_alg».proof.Proof.Bridge
import proofs.«166704_j65549790871667_1_alg».proof.Proof.RefAtt
import proofs.«166704_j65549790871667_1_alg».proof.Proof.RefValue
import proofs.«166704_j65549790871667_1_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefRun.run m ρ)

/-- From memories agreeing on the arguments both programs end at `Cert.Spec.result` of the arguments: the kernel by its
    run, the reference by its run and the two laws above (the integer count is the float count; the division commutes
    with the row sum on real entries). -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KRun.run m ρ, ?_⟩
  refine (θ_run Cert.ReferenceIdeal.defs _ _).mono (fun _ h c => ⟨(h c).1.trans ?_, (h c).2.1, (h c).2.2⟩)
    (Cert.ReferenceIdeal.RefRun.run m' ρ')
  rw [(hagree c).1, (hagree c).2]
  obtain ⟨hx, ha⟩ := Cert.Finite.of_pre _ _ (hpre c)
  unfold Cert.Spec.result
  rw [Cert.RefSpec.refAtt_eq_attR, Cert.Spec.attR_eq_attK _ _ (Cert.Finite.attn_real ha) (Cert.Finite.patches_real (Cert.Finite.x4_real hx))]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
